-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000x1 : Shape := ⟨2, ![1250000, 1]⟩
abbrev S1250000 : Shape := ⟨1, ![1250000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x1 : S_.BroadcastsInDim S1250000x1 (![] : Fin 0 → Fin S1250000x1.rank)
  reducesTo_S1250000x1_S_d0_1 : S1250000x1.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1250000x1 .f32) (main_arg2 : IVec S1250000 32) (main_arg3 : IVec S1250000 32) (main_arg4 : FVec F S64x128 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x1 .f32 := Host.absf main_arg1
  let main_cst_0 : FVec F S_ .f32 := constant S_ .f32 0x7F800000#32
  let main_v5 : FVec F S1250000x1 .f32 := broadcastInDim S1250000x1 ![] bcast_S_S1250000x1 main_cst_0
  let main_v6 : IVec S1250000x1 1 := cmpf .olt main_v4 main_v5
  let main_c_1 : IVec S_ 1 := constantI S_ 1 1#1
  let main_v7 : IVec S_ 1 := (fun x v => Host.reduce IntOp.andi x v reducesTo_S1250000x1_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1250000x1 : Shape := ⟨2, ![1250000, 1]⟩
abbrev S1250000 : Shape := ⟨1, ![1250000]⟩
abbrev S64x128 : Shape := ⟨2, ![64, 128]⟩
abbrev S64 : Shape := ⟨1, ![64]⟩
abbrev S_ : Shape := ⟨0, ![]⟩
abbrev S1250000x64 : Shape := ⟨2, ![1250000, 64]⟩
abbrev S1250000x65 : Shape := ⟨2, ![1250000, 65]⟩
abbrev S100000x65 : Shape := ⟨2, ![100000, 65]⟩
abbrev S100000x1 : Shape := ⟨2, ![100000, 1]⟩
abbrev S64x64 : Shape := ⟨2, ![64, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 38
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1250000x1, .f32⟩
  | .hbm, ⟨2, _⟩ => ⟨S1250000, .i32⟩
  | .hbm, ⟨3, _⟩ => ⟨S1250000, .i32⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S1250000x64, .f32⟩
  | .hbm, ⟨16, _⟩ => ⟨S1250000x64, .f32⟩
  | .hbm, ⟨17, _⟩ => ⟨S_, .f32⟩
  | .hbm, ⟨18, _⟩ => ⟨S1250000x1, .f32⟩
  | .hbm, ⟨19, _⟩ => ⟨S1250000x65, .f32⟩
  | .hbm, ⟨20, _⟩ => ⟨S_, .f32⟩
  | .hbm, ⟨21, _⟩ => ⟨S100000x65, .f32⟩
  | .hbm, ⟨22, _⟩ => ⟨S1250000x1, .i32⟩
  | .hbm, ⟨23, _⟩ => ⟨S100000x65, .f32⟩
  | .hbm, ⟨24, _⟩ => ⟨S100000x64, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S1x64, .f32⟩
  | .hbm, ⟨37, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S1250000x1 : S_.BroadcastsInDim S1250000x1 (![] : Fin 0 → Fin S1250000x1.rank)
  concatenates_S1250000x64_S1250000x1_S1250000x65_d1 : Shape.Concatenates [S1250000x64, S1250000x1] S1250000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  bcast_S_S100000x1 : S_.BroadcastsInDim S100000x1 (![] : Fin 0 → Fin S100000x1.rank)
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x65_S1250000x1_S1250000x65_1_0_0_1_wf : ScatterDims.WF S100000x65 S1250000x1 S1250000x65 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x65_S1250000x1_S1250000x65_1_0_0_1 : ScatterDims S100000x65 S1250000x1 S1250000x65 where
  updateWindowDims := [1]
  insertedWindowDims := [0]
  scatterDimsToOperandDims := [0]
  indexVectorDim := 1
  wf := scatter_S100000x65_S1250000x1_S1250000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000x1 : Shape := ⟨2, ![1250000, 1]⟩
abbrev S1250000 : Shape := ⟨1, ![1250000]⟩
abbrev S64x128 : Shape := ⟨2, ![64, 128]⟩
abbrev S64 : Shape := ⟨1, ![64]⟩
abbrev S_ : Shape := ⟨0, ![]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000x1, .f32⟩
  | .hbm, ⟨2, _⟩ => ⟨S1250000, .i32⟩
  | .hbm, ⟨3, _⟩ => ⟨S1250000, .i32⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S1250000x64, .f32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S_, .f32⟩
  | .hbm, ⟨22, _⟩ => ⟨S1250000, .f32⟩
  | .hbm, ⟨23, _⟩ => ⟨S_, .f32⟩
  | .hbm, ⟨24, _⟩ => ⟨S100000, .f32⟩
  | .hbm, ⟨25, _⟩ => ⟨S1250000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S100000x128, .f32⟩
  | .hbm, ⟨34, _⟩ => ⟨S128x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x128_S128x64_S100000x64_1_0_0_1_n_n_wf : DotDims.WF S100000x128 S128x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  A mean-aggregating graph layer, as ONE function of its data, index by index, on the extended reals.

  Data: node features `h` (100000 nodes, 64 features); one message per edge `M` (1250000 edges, 64 features: the source
  node's features times the edge weight); the column `dst` of the edges' destination words; weights `W` (64 outputs, 128
  inputs) and a bias `b`.  Edge `e` is an IN-EDGE of node `n` when its destination word, read signed, is `n`.  Node `n`'s
  aggregate is the sum of its in-edges' messages, its degree the number of its in-edges, its mean the aggregate divided
  by `max degree 1`; the layer returns `max ([h, mean] · Wᵀ + b) 0`.

  `layer` spells it with the 128-term product split in two halves (features against `W`'s first 64 columns, means against
  the last 64) and the mean as aggregate times the RECIPROCAL `1 / max degree 1`.  The laws below join that spelling to
  the other one (one 128-term product over the concatenated row, the mean as a quotient):
    * `mean_quot`: `a / c = a · (1 / c)` for `c ≠ 0`, and `max degree 1 ≠ 0` since it is at least 1 — no finiteness is
      needed, on the extended reals the quotient by a nonzero `c` IS the product with `c⁻¹`;
    * `sum_halves`: a sum over 128 indices is the sum over the first 64 plus the sum over the last 64.
-/
import Idealize.ShloMosaic.PureOps.Ideal
import Idealize.ShloMosaic.PureOps.Ideal.Laws
import Idealize.ShloMosaic.Lib.IdealHost
import Idealize.ShloMosaic.Lib.ValueIdx

noncomputable section

namespace Cert.MeanLayer

open Idealize.ShloMosaic Idealize.ShloMosaic.ValueIdx

/-- Node features, and the layer's result: 100000 nodes by 64. -/
abbrev Nodes : Shape := ⟨2, ![100000, 64]⟩
/-- One 64-feature message per edge. -/
abbrev Msgs : Shape := ⟨2, ![1250000, 64]⟩
/-- The edges' destination words, as a column. -/
abbrev DstCol : Shape := ⟨2, ![1250000, 1]⟩
/-- The weights: 64 outputs by 128 inputs. -/
abbrev Wts : Shape := ⟨2, ![64, 128]⟩
/-- The bias. -/
abbrev Bias : Shape := ⟨1, ![64]⟩

/-- The word of `1.0`, as the programs spell it. -/
def one : EReal := Ideal.ofBits .f32 0x3F800000#32
/-- The word of `0.0`, as the programs spell it. -/
def zero : EReal := Ideal.ofBits .f32 0x00000000#32

theorem one_eq : one = 1 := Ideal.ofBits_one_f32
theorem zero_eq : zero = 0 := Ideal.ofBits_zero_f32

/-- The in-edges of node `n`: the edges whose destination word, read signed, is `n`. -/
def inEdges (dst : DstCol.Idx → BitVec 32) (n : Fin 100000) : Finset (Fin 1250000) :=
  Finset.univ.filter fun e => (dst (ix2 e (0 : Fin 1))).toInt = (n.val : Int)

/-- Node `n`'s aggregate at feature `k`: the sum of its in-edges' messages (onto the zero word). -/
def agg (M : Msgs.Idx → EReal) (dst : DstCol.Idx → BitVec 32) (n : Fin 100000) (k : Fin 64) : EReal :=
  zero + ∑ e ∈ inEdges dst n, M (ix2 e k)

/-- Node `n`'s in-degree: a one per in-edge (onto the zero word). -/
def deg (dst : DstCol.Idx → BitVec 32) (n : Fin 100000) : EReal :=
  zero + ∑ _e ∈ inEdges dst n, one

/-- Input `k` of the first half of a 128-wide row. -/
def lo (k : Fin 64) : Fin 128 := ⟨k.val, by omega⟩
/-- Input `k` of the second half of a 128-wide row. -/
def hi (k : Fin 64) : Fin 128 := ⟨64 + k.val, by omega⟩

/-- The layer at node `n`, output `o`. -/
def layerAt (h : Nodes.Idx → EReal) (M : Msgs.Idx → EReal) (dst : DstCol.Idx → BitVec 32) (W : Wts.Idx → EReal)
    (b : Bias.Idx → EReal) (n : Fin 100000) (o : Fin 64) : EReal :=
  max (((∑ k : Fin 64, h (ix2 n k) * W (ix2 o (lo k)))
        + (∑ k : Fin 64, (agg M dst n k * Ideal.div one (max (deg dst n) one)) * W (ix2 o (hi k))))
        + b (ix1 o)) zero

/-- The layer, as a function of the result's index. -/
def layer (h : Nodes.Idx → EReal) (M : Msgs.Idx → EReal) (dst : DstCol.Idx → BitVec 32) (W : Wts.Idx → EReal)
    (b : Bias.Idx → EReal) : Nodes.Idx → EReal :=
  fun i => layerAt h M dst W b (i 0) (i 1)

/-! ## The laws -/

/-- A quotient by a nonzero extended real is the product with its reciprocal. -/
theorem div_eq_mul_div_one (x c : EReal) (hc : c ≠ 0) : Ideal.div x c = x * Ideal.div 1 c := by
  unfold Ideal.div
  rw [if_neg hc, if_neg hc, one_mul]

/-- `max degree 1` is at least 1, so it is not zero. -/
theorem degMax_ne_zero (dst : DstCol.Idx → BitVec 32) (n : Fin 100000) : max (deg dst n) one ≠ 0 := by
  intro h0
  have h1 : (1 : EReal) ≤ max (deg dst n) one := by rw [one_eq]; exact le_max_right _ _
  rw [h0] at h1
  exact absurd h1 (by norm_num)

/-- The mean as a quotient is the mean as a product with the reciprocal. -/
theorem mean_quot (M : Msgs.Idx → EReal) (dst : DstCol.Idx → BitVec 32) (n : Fin 100000) (k : Fin 64) :
    Ideal.div (agg M dst n k) (max (deg dst n) one) = agg M dst n k * Ideal.div one (max (deg dst n) one) := by
  rw [div_eq_mul_div_one _ _ (degMax_ne_zero dst n), one_eq]

/-- A sum over 128 indices is the sum over the first 64 plus the sum over the last 64. -/
theorem sum_halves (f : Fin 128 → EReal) : ∑ k : Fin 128, f k = (∑ k : Fin 64, f (lo k)) + ∑ k : Fin 64, f (hi k) :=
  Fin.sum_univ_add (a := 64) (b := 64) f

end Cert.MeanLayer

end
-- ==== Proof.Payload.lean ====
/-
  The kernel body's value at an entry of its tile.

  A tile is 5000 nodes.  From the tile's rows of the features `x0`, of the aggregates `x1` and of the reciprocal degrees `x3`
  (one column), the two 64×64 weight blocks `x9`, `x12` and the bias row `x18`, the body computes, at row `p` and output `q`,
      max ((∑ₖ x0[p,k]·x9[k,q] + ∑ₖ (x1[p,k]·x3[p,0])·x12[k,q]) + x18[0,q]) 0 :
  two matrix products into a zero accumulator (each a 64-term sum at the ideal values, the narrowing of the operands to
  bf16 being the identity there), the reciprocal degree spread along the row, the bias row spread down the tile, and a
  maximum with the zero word.
-/
import proofs.«116816_j15324443312418_2_alg».proof.Proof.Gen.KernelIdeal.Skeleton
import proofs.«116816_j15324443312418_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.MeanLayer.Tile

open Cert.KernelIdeal Cert.KernelIdeal.Gen Idealize.ShloMosaic Idealize.ShloMosaic.ValueIdx

/-- The tile product's left operand index at `(i, k)` has `i`'s row. -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The tile product's right operand index at `(i, k)` has `i`'s column. -/
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A [5000,64] × [64,64] product into the zero accumulator, at `(p, q)`: the sum over `k` of `x[p,k] · w[k,q]`. -/
theorem matmul_apply {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  simp only [matmul]
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q)
      ((ValueIdx.contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q)
      ((ValueIdx.contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ => exact rhs_col _ _)
  rw [el, er]

/-- A column [5000,1] spread to [5000,64] reads, at `(p, k)`, the column's entry of row `p`. -/
theorem spreadCol_apply {α : Type} (v : S5000x1.Idx → α) (h : S5000x1.Broadcasts S5000x64) (p : Fin 5000) (k : Fin 64) :
    broadcastTo S5000x64 v h (ix2 p k) = v (ix2 p (0 : Fin 1)) :=
  broadcastTo_apply v h (ix2 p k) (ix2 p (0 : Fin 1)) fun a => match a with
    | ⟨0, _⟩ => by show p.val = if (5000 : Nat) = 1 then 0 else p.val; rw [if_neg (by decide)]
    | ⟨1, _⟩ => by show 0 = if (1 : Nat) = 1 then 0 else k.val; rw [if_pos rfl]

/-- The body's value at row `p`, output `q` of the tile. -/
theorem pay_apply (x0 x1 : Vec Ideal S5000x64 .f32) (x3 : Vec Ideal S5000x1 .f32) (x9 x12 : Vec Ideal S64x64 .f32)
    (x18 : Vec Ideal S1x64 .f32) (p : Fin 5000) (q : Fin 64) :
    k0_pay1 (F := Ideal) x0 x1 x3 x9 x12 x18 (ix2 p q)
      = max (((∑ k : Fin 64, x0 (ix2 p k) * x9 (ix2 k q))
          + (∑ k : Fin 64, (x1 (ix2 p k) * x3 (ix2 p (0 : Fin 1))) * x12 (ix2 k q)))
          + x18 (ix2 (0 : Fin 1) q)) zero := by
  unfold k0_pay1
  simp only [maximumf_apply, addf_apply, broadcast_apply, matmul_apply, truncf_apply, mulf_apply, shapeCast_self,
    spreadCol_apply, broadcastTo_1b_ab_apply]
  rfl

end Cert.MeanLayer.Tile

end
-- ==== Proof.KernelBlocks.lean ====
/-
  From tiles to the array.

  The result array is cut into 20 tiles of 5000 nodes.  Tile `t` is computed from rows `5000·t … 5000·t + 4999` of the
  features, of the aggregates and of the reciprocal degrees, and from the whole weight blocks and bias row; it is written
  back to rows `5000·t …` of the result.  So what tile `t` writes is tile `t` of ONE function `tiled` of the six arrays, read at
  the result's own index; the tiles cover the result (node `n` is in tile `n / 5000`); hence the result array ends holding
  `tiled`.
-/
import proofs.«116816_j15324443312418_2_alg».proof.Proof.Gen.KernelIdeal.Value
import proofs.«116816_j15324443312418_2_alg».proof.Proof.Payload
import Idealize.ShloMosaic.Lib.Pipeline.Value
import Idealize.ShloMosaic.Lib.ValueIdx

noncomputable section

namespace Cert.MeanLayer.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The node of a result index. -/
def node (i : S100000x64.Idx) : Fin 100000 := ⟨(i 0).val, (i 0).isLt⟩
/-- The output of a result index. -/
def outp (i : S100000x64.Idx) : Fin 64 := ⟨(i 1).val, (i 1).isLt⟩

/-- What the tiles compute, as one function of the six arrays the tile loop reads, at the result's index. -/
def tiled (A0 A1 : S100000x64.Idx → EReal) (A2 : S100000x1.Idx → EReal) (A3 A4 : S64x64.Idx → EReal)
    (A5 : S1x64.Idx → EReal) : S100000x64.Idx → EReal := fun i =>
  max (((∑ k : Fin 64, A0 (ix2 (node i) k) * A3 (ix2 k (outp i)))
        + (∑ k : Fin 64, (A1 (ix2 (node i) k) * A2 (ix2 (node i) (0 : Fin 1))) * A4 (ix2 k (outp i))))
        + A5 (ix2 (0 : Fin 1) (outp i))) zero

/-- The printed index maps, decided over the 20 grid points: the three row-tiled inputs and the output are at tile `t`,
    column block 0; the weight blocks and the bias row stay at block (0, 0). -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The body's one store, through the whole block, leaves the payload of the whole blocks it loads. -/
theorem out_eq (x0 x1 : Vec Ideal S5000x64 .f32) (x2 : Vec Ideal S5000x1 .f32) (x3 x4 : Vec Ideal S64x64 .f32)
    (x5 : Vec Ideal S1x64 .f32) : out0_6 x0 x1 x2 x3 x4 x5 = k0_pay1 x0 x1 x2 x3 x4 x5 := by
  unfold out0_6
  rw [View.canon_unit_zero hz]
  simp only [View.ld_unit_zero (S := S5000x64) hz, View.ld_unit_zero (S := S5000x1) hz,
    View.ld_unit_zero (S := S64x64) hz, View.ld_unit_zero (S := S1x64) hz]

/-- Tile `t` of `tiled`, for ANY six arrays read through the windows' blocks at point `t`: the body's value at row `p`,
    output `q` of the tile is `tiled` at the result index the tile's block gives `(p, q)`. -/
theorem tile_eq (c : Dev nD) (t : Fin cfg0.N)
    (A0 : Buf (Elt Ideal) ((cfg0.win 0).arr.view.loc (c.tc : Thread nD τ)))
    (A1 : Buf (Elt Ideal) ((cfg0.win 1).arr.view.loc (c.tc : Thread nD τ)))
    (A2 : Buf (Elt Ideal) ((cfg0.win 2).arr.view.loc (c.tc : Thread nD τ)))
    (A3 : Buf (Elt Ideal) ((cfg0.win 3).arr.view.loc (c.tc : Thread nD τ)))
    (A4 : Buf (Elt Ideal) ((cfg0.win 4).arr.view.loc (c.tc : Thread nD τ)))
    (A5 : Buf (Elt Ideal) ((cfg0.win 5).arr.view.loc (c.tc : Thread nD τ)))
    (p : Fin 5000) (q : Fin 64) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5) (ix2 p q)
      = tiled A0 A1 A2 A3 A4 A5 (((cfg0.win 6).blk t).view.emb (ix2 p q)) := by
  obtain ⟨e60, e61, e00, e01, e10, e11, e20, e21, e30, e31, e40, e41, e50, e51⟩ := idx_facts t
  refine (Tile.pay_apply _ _ _ _ _ _ p q).trans ?_
  have hn : (node (((cfg0.win 6).blk t).view.emb (ix2 p q))).val = win0_6.index t (0 : Fin 2) * 5000 + 1 * p.val := rfl
  have ho : (outp (((cfg0.win 6).blk t).view.emb (ix2 p q))).val = win0_6.index t (1 : Fin 2) * 64 + 1 * q.val := rfl
  have h0 : ∀ k : Fin 64, ((cfg0.win 0).blk t).view.read (Elt Ideal) A0 (ix2 p k)
      = A0 (ix2 (node (((cfg0.win 6).blk t).view.emb (ix2 p q))) k) := fun k => by
    show A0 (((cfg0.win 0).blk t).view.emb (ix2 p k)) = _
    refine congrArg A0 (funext fun a => Fin.ext ?_)
    match a with
    | ⟨0, _⟩ => show win0_0.index t (0 : Fin 2) * 5000 + 1 * p.val = _; rw [hn]; omega
    | ⟨1, _⟩ => show win0_0.index t (1 : Fin 2) * 64 + 1 * k.val = k.val; omega
  have h1 : ∀ k : Fin 64, ((cfg0.win 1).blk t).view.read (Elt Ideal) A1 (ix2 p k)
      = A1 (ix2 (node (((cfg0.win 6).blk t).view.emb (ix2 p q))) k) := fun k => by
    show A1 (((cfg0.win 1).blk t).view.emb (ix2 p k)) = _
    refine congrArg A1 (funext fun a => Fin.ext ?_)
    match a with
    | ⟨0, _⟩ => show win0_1.index t (0 : Fin 2) * 5000 + 1 * p.val = _; rw [hn]; omega
    | ⟨1, _⟩ => show win0_1.index t (1 : Fin 2) * 64 + 1 * k.val = k.val; omega
  have h2 : ((cfg0.win 2).blk t).view.read (Elt Ideal) A2 (ix2 p (0 : Fin 1))
      = A2 (ix2 (node (((cfg0.win 6).blk t).view.emb (ix2 p q))) (0 : Fin 1)) := by
    show A2 (((cfg0.win 2).blk t).view.emb (ix2 p (0 : Fin 1))) = _
    refine congrArg A2 (funext fun a => Fin.ext ?_)
    match a with
    | ⟨0, _⟩ => show win0_2.index t (0 : Fin 2) * 5000 + 1 * p.val = _; rw [hn]; omega
    | ⟨1, _⟩ => show win0_2.index t (1 : Fin 2) * 1 + 1 * 0 = 0; omega
  have h3 : ∀ k : Fin 64, ((cfg0.win 3).blk t).view.read (Elt Ideal) A3 (ix2 k q)
      = A3 (ix2 k (outp (((cfg0.win 6).blk t).view.emb (ix2 p q)))) := fun k => by
    show A3 (((cfg0.win 3).blk t).view.emb (ix2 k q)) = _
    refine congrArg A3 (funext fun a => Fin.ext ?_)
    match a with
    | ⟨0, _⟩ => show win0_3.index t (0 : Fin 2) * 64 + 1 * k.val = k.val; omega
    | ⟨1, _⟩ => show win0_3.index t (1 : Fin 2) * 64 + 1 * q.val = _; rw [ho]; omega
  have h4 : ∀ k : Fin 64, ((cfg0.win 4).blk t).view.read (Elt Ideal) A4 (ix2 k q)
      = A4 (ix2 k (outp (((cfg0.win 6).blk t).view.emb (ix2 p q)))) := fun k => by
    show A4 (((cfg0.win 4).blk t).view.emb (ix2 k q)) = _
    refine congrArg A4 (funext fun a => Fin.ext ?_)
    match a with
    | ⟨0, _⟩ => show win0_4.index t (0 : Fin 2) * 64 + 1 * k.val = k.val; omega
    | ⟨1, _⟩ => show win0_4.index t (1 : Fin 2) * 64 + 1 * q.val = _; rw [ho]; omega
  have h5 : ((cfg0.win 5).blk t).view.read (Elt Ideal) A5 (ix2 (0 : Fin 1) q)
      = A5 (ix2 (0 : Fin 1) (outp (((cfg0.win 6).blk t).view.emb (ix2 p q)))) := by
    show A5 (((cfg0.win 5).blk t).view.emb (ix2 (0 : Fin 1) q)) = _
    refine congrArg A5 (funext fun a => Fin.ext ?_)
    match a with
    | ⟨0, _⟩ => show win0_5.index t (0 : Fin 2) * 1 + 1 * 0 = 0; omega
    | ⟨1, _⟩ => show win0_5.index t (1 : Fin 2) * 64 + 1 * q.val = _; rw [ho]; omega
  unfold tiled
  simp only [h0, h1, h2, h3, h4, h5]

/-- The same at every index of the block tile `t` writes back, in the form the write-back is stated in. -/
theorem tile_cut (c : Dev nD) (t : Fin cfg0.N)
    (A0 : Buf (Elt Ideal) ((cfg0.win 0).arr.view.loc (c.tc : Thread nD τ)))
    (A1 : Buf (Elt Ideal) ((cfg0.win 1).arr.view.loc (c.tc : Thread nD τ)))
    (A2 : Buf (Elt Ideal) ((cfg0.win 2).arr.view.loc (c.tc : Thread nD τ)))
    (A3 : Buf (Elt Ideal) ((cfg0.win 3).arr.view.loc (c.tc : Thread nD τ)))
    (A4 : Buf (Elt Ideal) ((cfg0.win 4).arr.view.loc (c.tc : Thread nD τ)))
    (A5 : Buf (Elt Ideal) ((cfg0.win 5).arr.view.loc (c.tc : Thread nD τ))) :
    (cfg0.win 6).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (tiled A0 A1 A2 A3 A4 A5) := by
  funext j
  obtain ⟨p, q, rfl⟩ : ∃ (p : Fin 5000) (q : Fin 64), j = ix2 p q := ⟨j 0, j 1, eq_ix2 j⟩
  exact tile_eq c t A0 A1 A2 A3 A4 A5 p q

/-- WHAT TILE `t` WRITES BACK is tile `t` of `tiled` of the arrays as the tile loop finds them. -/
theorem flushed_eq (c : Dev nD) (t : Fin cfg0.N) :
    (dats m 0 c).flushed 6 t = ((cfg0.win 6).blk t).view.read (Elt Ideal)
      (tiled (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  rw [Cert.KernelIdeal.Value.flushed6, out_eq]
  unfold iblk
  generalize V m c (Pipeline.arrRef spec0 0) = A0
  generalize V m c (Pipeline.arrRef spec0 1) = A1
  generalize V m c (Pipeline.arrRef spec0 2) = A2
  generalize V m c (Pipeline.arrRef spec0 3) = A3
  generalize V m c (Pipeline.arrRef spec0 4) = A4
  generalize V m c (Pipeline.arrRef spec0 5) = A5
  exact tile_cut c t A0 A1 A2 A3 A4 A5

/-- An index of the result is in tile `t` iff each coordinate is in the tile's range on its axis. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v25).slice (win0_6.rect t)).set ↔ _
  rw [View.set_slice_whole, Rect.mem_set_unit]
  exact Iff.rfl

/-- THE TILES COVER THE RESULT: node `n` is in tile `n / 5000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 5000 < 20 := by omega
  refine ⟨⟨(i 0).val / 5000, ht⟩, flush0_6 _, ?_⟩
  rw [mem_blk]
  obtain ⟨e60, e61, -⟩ := idx_facts ⟨(i 0).val / 5000, ht⟩
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, ht⟩ (1 : Fin 2) * 64 ≤ (i 1).val
      ∧ (i 1).val < win0_6.index ⟨(i 0).val / 5000, ht⟩ (1 : Fin 2) * 64 + 64
    rw [e61]; omega

/-- THE RESULT ARRAY after the run is `tiled` of the arrays as the tile loop finds them. -/
theorem final (c : Dev nD) : (dats m 0 c).arrAt 6 cfg0.N
    = tiled (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5)) :=
  (dats m 0 c).arrAt_eq_of_cover 6 _ (fun t _ => flushed_eq m c t) cover

end Cert.MeanLayer.Blocks

end
-- ==== Proof.HostStages.lean ====
/-
  The arrays the tile loop reads, as the host operations before it leave them.

  Before the tiles are processed the program gathers the source features of every edge and scales them by the edge
  weight (the messages), appends a column of ones, scatter-adds the 65-wide rows by destination node, cuts the result into
  the 64 aggregate columns and the degree column, turns the degree column into reciprocals of `max degree 1`, cuts the
  weights into their two 64×64 halves, transposed, and lays the bias out as a row.  Each of these arrays is named here as
  one term of the program's arguments, and the array each window of the tile loop stages is identified with its term.
-/
import proofs.«116816_j15324443312418_2_alg».proof.Proof.Gen.KernelIdeal.Frame
import Idealize.ShloMosaic.Lib.StableHlo.Run
import Idealize.ShloMosaic.PureOps.Ideal

noncomputable section

namespace Cert.MeanLayer.Host

open Cert.KernelIdeal Cert.KernelIdeal.Gen Idealize.ShloMosaic Idealize.ShloMosaic.TcCoe Idealize.SL.Sem
open Idealize.ShloMosaic.StableHlo

/-- The edges' source words as a column, a negative word wrapped around by the number of nodes. -/
def srcCol (x2 : (⟨S1250000, .i32⟩ : BufTy).Contents (Elt Ideal)) : (⟨S1250000x1, .i32⟩ : BufTy).Contents (Elt Ideal) :=
  broadcastInDim S1250000x1 ![0] bcast_S1250000_S1250000x1_0
    (select (cmpi .slt x2 (broadcastInDim S1250000 ![] bcast_S_S1250000 (constantI S_ 32 0#32)))
      (addi x2 (broadcastInDim S1250000 ![] bcast_S_S1250000 (constantI S_ 32 100000#32))) x2)

/-- The messages: each edge's source features times the edge's weight. -/
def msgs (x0 : (⟨S100000x64, .f32⟩ : BufTy).Contents (Elt Ideal)) (x1 : (⟨S1250000x1, .f32⟩ : BufTy).Contents (Elt Ideal))
    (x2 : (⟨S1250000, .i32⟩ : BufTy).Contents (Elt Ideal)) : (⟨S1250000x64, .f32⟩ : BufTy).Contents (Elt Ideal) :=
  mulf (F := Ideal) (φ := .f32) (Host.gather gather_S100000x64_S1250000x1_S1250000x64_1_0_n_n_0_1_164 x0 (srcCol x2))
    (broadcastInDim S1250000x64 ![0, 1] bcast_S1250000x1_S1250000x64_0_1 x1)

/-- The edges' destination words as a column. -/
def dstCol (x3 : (⟨S1250000, .i32⟩ : BufTy).Contents (Elt Ideal)) : (⟨S1250000x1, .i32⟩ : BufTy).Contents (Elt Ideal) :=
  broadcastInDim S1250000x1 ![0] bcast_S1250000_S1250000x1_0 x3

/-- The messages with a column of ones appended. -/
def msgsExt (M : (⟨S1250000x64, .f32⟩ : BufTy).Contents (Elt Ideal)) : (⟨S1250000x65, .f32⟩ : BufTy).Contents (Elt Ideal) :=
  concatenate S1250000x65 1 [⟨S1250000x64, M⟩,
    ⟨S1250000x1, broadcastInDim S1250000x1 ![] bcast_S_S1250000x1 (constant (F := Ideal) S_ .f32 0x3F800000#32)⟩]
    concatenates_S1250000x64_S1250000x1_S1250000x65_d1

/-- The 65-wide rows scatter-added by destination node, onto zeros. -/
def sums (M : (⟨S1250000x64, .f32⟩ : BufTy).Contents (Elt Ideal)) (D : (⟨S1250000x1, .i32⟩ : BufTy).Contents (Elt Ideal)) :
    (⟨S100000x65, .f32⟩ : BufTy).Contents (Elt Ideal) :=
  Host.scatterAdd scatter_S100000x65_S1250000x1_S1250000x65_1_0_0_1
    (broadcastInDim S100000x65 ![] bcast_S_S100000x65 (constant (F := Ideal) S_ .f32 0x00000000#32)) D (msgsExt M)

/-- The aggregates: the first 64 columns of the sums. -/
def aggs (M : (⟨S1250000x64, .f32⟩ : BufTy).Contents (Elt Ideal)) (D : (⟨S1250000x1, .i32⟩ : BufTy).Contents (Elt Ideal)) :
    (⟨S100000x64, .f32⟩ : BufTy).Contents (Elt Ideal) :=
  extractStridedSlice S100000x64 ![0, 0] (sums M D) slices_S100000x65_S100000x64_0_0

/-- The reciprocal of `max degree 1`, the degree being the last column of the sums. -/
def invDeg (M : (⟨S1250000x64, .f32⟩ : BufTy).Contents (Elt Ideal)) (D : (⟨S1250000x1, .i32⟩ : BufTy).Contents (Elt Ideal)) :
    (⟨S100000x1, .f32⟩ : BufTy).Contents (Elt Ideal) :=
  Host.divf (broadcastInDim S100000x1 ![] bcast_S_S100000x1 (constant (F := Ideal) S_ .f32 0x3F800000#32))
    (maximumf (extractStridedSlice S100000x1 ![0, 64] (sums M D) slices_S100000x65_S100000x1_0_64)
      (broadcastInDim S100000x1 ![] bcast_S_S100000x1 (constant (F := Ideal) S_ .f32 0x3F800000#32)))

/-- The first 64 input columns of the weights, transposed. -/
def wLo (x4 : (⟨S64x128, .f32⟩ : BufTy).Contents (Elt Ideal)) : (⟨S64x64, .f32⟩ : BufTy).Contents (Elt Ideal) :=
  transpose S64x64 [1, 0] (extractStridedSlice S64x64 ![0, 0] x4 slices_S64x128_S64x64_0_0) transposes_S64x64_S64x64_1_0

/-- The last 64 input columns of the weights, transposed. -/
def wHi (x4 : (⟨S64x128, .f32⟩ : BufTy).Contents (Elt Ideal)) : (⟨S64x64, .f32⟩ : BufTy).Contents (Elt Ideal) :=
  transpose S64x64 [1, 0] (extractStridedSlice S64x64 ![0, 64] x4 slices_S64x128_S64x64_0_64) transposes_S64x64_S64x64_1_0

variable (m : (ℓ : Loc nD τ sig) → Buf (Elt Ideal) ℓ)

/-- The messages of the launch memory. -/
abbrev M₀ (c : Dev nD) : (⟨S1250000x64, .f32⟩ : BufTy).Contents (Elt Ideal) :=
  msgs (m ((c : Thread nD τ).loc main_arg0)) (m ((c : Thread nD τ).loc main_arg1)) (m ((c : Thread nD τ).loc main_arg2))
/-- The destination column of the launch memory. -/
abbrev D₀ (c : Dev nD) : (⟨S1250000x1, .i32⟩ : BufTy).Contents (Elt Ideal) :=
  dstCol (m ((c : Thread nD τ).loc main_arg3))

/-- The aggregates' window stages the aggregates. -/
theorem V_aggs (c : Dev nD) : (V m c main_v14 : (⟨S100000x64, .f32⟩ : BufTy).Contents (Elt Ideal)) = aggs (M₀ m c) (D₀ m c) := by
  dsimp only [V, hostOps0]
  after_results_simp
  rfl

/-- The reciprocal degrees' window stages the reciprocal degrees. -/
theorem V_invDeg (c : Dev nD) : (V m c main_v19 : (⟨S100000x1, .f32⟩ : BufTy).Contents (Elt Ideal)) = invDeg (M₀ m c) (D₀ m c) := by
  dsimp only [V, hostOps0]
  after_results_simp
  rfl

/-- The first weights window stages the first half of the weights, transposed. -/
theorem V_wLo (c : Dev nD) : (V m c main_v21 : (⟨S64x64, .f32⟩ : BufTy).Contents (Elt Ideal)) = wLo (m ((c : Thread nD τ).loc main_arg4)) := by
  dsimp only [V, hostOps0]
  after_results
  rfl

/-- The second weights window stages the second half of the weights, transposed. -/
theorem V_wHi (c : Dev nD) : (V m c main_v23 : (⟨S64x64, .f32⟩ : BufTy).Contents (Elt Ideal)) = wHi (m ((c : Thread nD τ).loc main_arg4)) := by
  dsimp only [V, hostOps0]
  after_results
  rfl

/-- The bias window stages the bias as a row. -/
theorem V_bias (c : Dev nD) : (V m c main_v24 : (⟨S1x64, .f32⟩ : BufTy).Contents (Elt Ideal))
    = shapeCast S1x64 (m ((c : Thread nD τ).loc main_arg5)) shapeCasts_S64_S1x64 := by
  dsimp only [V, hostOps0]
  after_results
  rfl

end Cert.MeanLayer.Host

end
-- ==== Proof.LibScatterSet.lean ====
/-
  A `stablehlo.scatter` read at ONE index of its result.

  The scatter is a left fold over the update indices, in row-major order: update index `j` lands at the operand index
  `start j + window j` (coordinate by coordinate), when that is inside the operand, and replaces the element there by the
  body applied to it and the update's element. So at a fixed operand index `i`:
    * if NO update index lands at `i`, the result holds the operand's element (whatever the body);
    * if the body returns the update (`.at[…].set`) and every update index landing at `i` carries one and the same
      value `c` — in particular when exactly one lands there —, the result holds `c`.
  `resultIdx?_eq_some_iff` says when update index `j` lands at `i`: on every axis, `i`'s coordinate is the window's start
  plus `j`'s window coordinate (the "inside the operand" test is then automatic, `i` being an index of the operand).
  `start_eq_zero`: when the scatter indices are all zero words (`x.at[0, :, :, 0, 0]`), every window starts at 0.
-/
import Idealize.ShloMosaic.PureOps.ShapeOps

namespace Idealize.ShloMosaic.ScatterRead

open Idealize.ShloMosaic

/-! ## A left fold of "overwrite one point" steps, read at a point -/

section Fold
variable {α ι κ : Type}

/-- A fold whose steps leave the point `i` alone (none of the listed steps targets it) keeps the start value there. -/
theorem foldl_apply_of_forall_ne (F : (κ → α) → ι → (κ → α)) (g : ι → Option κ) (i : κ)
    (hne : ∀ r n, g n ≠ some i → F r n i = r i) :
    ∀ (l : List ι) (x : κ → α), (∀ n ∈ l, g n ≠ some i) → l.foldl F x i = x i
  | [], _, _ => rfl
  | a :: l, x, h => by
    rw [List.foldl_cons, foldl_apply_of_forall_ne F g i hne l (F x a) (fun n hn => h n (List.mem_cons_of_mem _ hn))]
    exact hne x a (h a List.mem_cons_self)

/-- A fold of overwriting steps, at a point `i` that some listed step targets, all such steps carrying the value `c`:
    the last of them wrote `c` and no later step touches `i`. -/
theorem foldl_apply_of_hits (F : (κ → α) → ι → (κ → α)) (g : ι → Option κ) (v : ι → α) (i : κ) (c : α)
    (hne : ∀ r n, g n ≠ some i → F r n i = r i) (heq : ∀ r n, g n = some i → F r n i = v n) :
    ∀ (l : List ι) (x : κ → α), (∀ n ∈ l, g n = some i → v n = c) → (∃ n ∈ l, g n = some i) → l.foldl F x i = c
  | [], _, _, hex => by obtain ⟨n, hn, _⟩ := hex; cases hn
  | a :: l, x, hall, hex => by
    rw [List.foldl_cons]
    by_cases h : ∃ n ∈ l, g n = some i
    · exact foldl_apply_of_hits F g v i c hne heq l (F x a) (fun n hn => hall n (List.mem_cons_of_mem _ hn)) h
    · have h' : ∀ n ∈ l, g n ≠ some i := fun n hn e => h ⟨n, hn, e⟩
      rw [foldl_apply_of_forall_ne F g i hne l (F x a) h']
      obtain ⟨n, hn, hg⟩ := hex
      rcases List.mem_cons.1 hn with rfl | hn'
      · rw [heq x n hg]; exact hall n List.mem_cons_self hg
      · exact absurd hg (h' n hn')

end Fold

/-! ## Where an update index lands -/

section Scatter
variable {α : Type} {s si u : Shape} {w : Nat}

/-- Update index `j` lands at the operand index `i` exactly when, on every axis, `i`'s coordinate is the window's start
    plus `j`'s window coordinate. -/
theorem resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  split
  · rename_i h
    constructor
    · intro e a
      have e' := Option.some.inj e
      rw [← e']
      exact Int.toNat_of_nonneg (h a).1
    · intro e
      refine congrArg some (funext fun a => Fin.ext ?_)
      show (d.start j idx a + d.window j a).toNat = (i a).val
      rw [← e a]; exact Int.toNat_natCast _
  · rename_i h
    constructor
    · intro e; cases e
    · intro e
      exact absurd (fun a => ⟨by rw [← e a]; exact Int.natCast_nonneg _,
        by rw [← e a]; exact Int.ofNat_lt.2 (i a).isLt⟩) h

/-- With every component of every start index the zero word, every window starts at 0 on every axis. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-! ## The scatter at an index -/

/-- No update index lands at `i`: the scatter's result holds the operand's element there, whatever the body. -/
theorem scatter_apply_of_forall_ne (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  refine foldl_apply_of_forall_ne _ (fun n => d.resultIdx? (u.rowMajor.symm n) idx) i ?_ _ x (fun n _ => h _)
  intro r n hn
  generalize d.resultIdx? (u.rowMajor.symm n) idx = o at hn ⊢
  cases o with
  | none => rfl
  | some i₀ =>
    show (if i = i₀ then _ else r i) = r i
    rw [if_neg]
    intro e
    exact hn (by rw [e])

/-- A scatter whose body returns the update (`.at[…].set`), at an index `i` where update index `j₀` lands, every update
    index landing there carrying the same value as `j₀` (so, in particular, when only `j₀` lands there): the result
    holds `j₀`'s update. -/
theorem scatter_set_apply (d : ScatterDims s si u) (x : s.Idx → α) (idx : IVec si w) (upd : u.Idx → α) (i : s.Idx)
    (j₀ : u.Idx) (h₀ : d.resultIdx? j₀ idx = some i) (hsame : ∀ j : u.Idx, d.resultIdx? j idx = some i → upd j = upd j₀) :
    Host.scatter d (fun _ b => b) x idx upd i = upd j₀ := by
  unfold Host.scatter
  refine foldl_apply_of_hits _ (fun n => d.resultIdx? (u.rowMajor.symm n) idx) (fun n => upd (u.rowMajor.symm n)) i
    (upd j₀) ?_ ?_ _ x (fun n _ hn => hsame _ hn)
    ⟨u.rowMajor j₀, List.mem_finRange _, by rw [Equiv.symm_apply_apply]; exact h₀⟩
  · intro r n hn
    generalize d.resultIdx? (u.rowMajor.symm n) idx = o at hn ⊢
    cases o with
    | none => rfl
    | some i₀ =>
      show (if i = i₀ then _ else r i) = r i
      rw [if_neg]
      intro e
      exact hn (by rw [e])
  · intro r n hn
    generalize hv : upd (u.rowMajor.symm n) = v
    generalize d.resultIdx? (u.rowMajor.symm n) idx = o at hn ⊢
    cases o with
    | none => cases hn
    | some i₀ =>
      show (if i = i₀ then v else r i) = v
      rw [if_pos (Option.some.inj hn).symm]

end Scatter

end Idealize.ShloMosaic.ScatterRead
-- ==== Proof.LibScatterRows.lean ====
/-
  A `stablehlo.scatter` with an ADD body whose scatter indices are ONE COLUMN of row numbers, read at one index of its
  result, at the ideal instance (extended reals).

  The operand has `N` rows (and, in the rank-2 case, `C` columns); there are `E` updates, update `e` being a whole row of
  `C` elements (rank 2) or a single element (rank 1); the scatter indices have shape `[E, 1]`: one index word per update,
  the number of the operand row the update is added to. The dimension numbers say exactly this: the one component of a
  start index goes to operand axis 0, which is an inserted window axis (the window has extent 1 there), and, in the rank-2
  case, the update's axis 1 is the window axis, going to operand axis 1.

  The result index of update index `j` is, coordinate by coordinate, the window's start plus `j`'s window coordinate:
    * on axis 0 the start is the index word of update row `j 0`, read SIGNED and not clamped, and the window coordinate
      is 0;
    * on axis 1 (rank 2) the start is 0 and the window coordinate is `j 1`.
  So update row `e` lands on operand row `n` exactly when the signed reading of its index word is `n`, and it keeps its
  column; a row whose index word reads outside `0 … N-1` lands nowhere and is dropped. Hence the element of the result
  at row `n` (column `q`) is the operand's element there plus the sum, over the update rows `e` whose index word reads
  `n`, of the update's element in row `e` (column `q`). The two theorems, `hostScatterAdd_rows2` (rank 2) and
  `hostScatterAdd_rows1` (rank 1), filter the rows `e : Fin E` by the SAME predicate, so a column of a rank-2 scatter is
  a rank-1 scatter with the same indices. The sizes `N`, `C`, `E` and the index width `w` are arbitrary.
-/
import Idealize.ShloMosaic.PureOps.Ideal
import Idealize.ShloMosaic.PureOps.Contract
import Idealize.ShloMosaic.Lib.ValueIdx
import proofs.«116816_j15324443312418_2_alg».proof.Proof.LibScatterSet

open scoped BigOperators

namespace Idealize.ShloMosaic.ScatterRows

open Idealize.ShloMosaic Idealize.ShloMosaic.ValueIdx Idealize.ShloMosaic.ScatterRead

/-! ## Rank 2: rows of `C` elements -/

section Rank2
variable {N C E w : Nat}
  (wf : ScatterDims.WF ⟨2, ![N, C]⟩ ⟨2, ![E, 1]⟩ ⟨2, ![E, C]⟩ [1] [0] [0] 1)

/-- The rank-2 dimension numbers: update axis 1 is the window axis, operand axis 0 is inserted, the one start-index
    component goes to operand axis 0, and the index vector is the scatter indices' axis 1. -/
abbrev d2 : ScatterDims ⟨2, ![N, C]⟩ ⟨2, ![E, 1]⟩ ⟨2, ![E, C]⟩ := ⟨[1], [0], [0], 1, wf⟩

/-- Rank 2: operand axis 0 is an inserted window axis, so the window coordinate there is 0. -/
theorem window2_0 (j : (⟨2, ![E, C]⟩ : Shape).Idx) : (d2 wf).window j 0 = 0 := by
  unfold ScatterDims.window
  rw [dif_neg (by show (0 : Fin 2) ∉ ([1] : List (Fin 2)); decide)]

/-- Rank 2: operand axis 1 is the one kept axis, and the update's window axis 1 goes to it: the window coordinate there
    is the update index's column. -/
theorem window2_1 (j : (⟨2, ![E, C]⟩ : Shape).Idx) : (d2 wf).window j 1 = (j 1).val := by
  unfold ScatterDims.window
  rw [dif_pos (by show (1 : Fin 2) ∈ ([1] : List (Fin 2)); decide)]
  rfl

/-- Rank 2: no start-index component goes to operand axis 1, so the window starts at 0 there. -/
theorem start2_1 (j : (⟨2, ![E, C]⟩ : Shape).Idx) (idx : IVec ⟨2, ![E, 1]⟩ w) : (d2 wf).start j idx 1 = 0 := by
  unfold ScatterDims.start
  rw [dif_neg (by show (1 : Fin 2) ∉ ([0] : List (Fin 2)); decide)]

/-- Rank 2: the scatter-indices index an update index reads its start from is its row, at the index vector's only
    position. -/
theorem siIdx2 (j : (⟨2, ![E, C]⟩ : Shape).Idx) (c : Fin (d2 wf).scatterDimsToOperandDims.length) :
    (d2 wf).siIdx j c = ix2 (j 0) (0 : Fin 1) := by
  funext b
  match b with
  | ⟨0, _⟩ => rfl
  | ⟨1, _⟩ =>
    apply Fin.ext
    have h : c.val < 1 := c.isLt
    show c.val = 0
    omega

/-- Rank 2: on operand axis 0 the window starts at the signed reading of the update row's index word. -/
theorem start2_0 (j : (⟨2, ![E, C]⟩ : Shape).Idx) (idx : IVec ⟨2, ![E, 1]⟩ w) :
    (d2 wf).start j idx 0 = (idx (ix2 (j 0) (0 : Fin 1))).toInt := by
  unfold ScatterDims.start
  rw [dif_pos (by show (0 : Fin 2) ∈ ([0] : List (Fin 2)); decide)]
  rw [siIdx2]
  rfl

/-- Rank 2: update index `j` lands at operand row `n`, column `q`, exactly when the index word of its row reads `n`
    (signed) and its column is `q`. -/
theorem lands2_iff (idx : IVec ⟨2, ![E, 1]⟩ w) (j : (⟨2, ![E, C]⟩ : Shape).Idx) (n : Fin N) (q : Fin C) :
    (d2 wf).resultIdx? j idx = some (ix2 n q) ↔
      (idx (ix2 (j 0) (0 : Fin 1))).toInt = (n.val : Int) ∧ j 1 = q := by
  rw [resultIdx?_eq_some_iff]
  constructor
  · intro h
    have h0 := h 0
    have h1 := h 1
    rw [start2_0, window2_0] at h0
    rw [start2_1, window2_1] at h1
    have h0' : (n.val : Int) = (idx (ix2 (j 0) (0 : Fin 1))).toInt + ((0 : Nat) : Int) := h0
    have h1' : (q.val : Int) = 0 + ((j 1).val : Int) := h1
    refine ⟨by omega, Fin.ext ?_⟩
    show (j 1).val = q.val
    omega
  · rintro ⟨h0, h1⟩ a
    match a with
    | ⟨0, _⟩ =>
      show (n.val : Int) = (d2 wf).start j idx 0 + ((d2 wf).window j 0 : Nat)
      rw [start2_0, window2_0, h0]; simp
    | ⟨1, _⟩ =>
      show (q.val : Int) = (d2 wf).start j idx 1 + ((d2 wf).window j 1 : Nat)
      rw [start2_1, window2_1, ← h1]; simp

/-- Rank 2. A scatter-add of `E` update rows of `C` elements into an `N × C` operand, update row `e` going to the operand
    row its index word names: the result at row `n`, column `q`, is the operand's element there plus the sum of the
    updates' elements in column `q` over the rows `e` whose index word reads `n` (signed, not clamped: a row whose word
    reads outside the operand is dropped, which the filter says since `n < N`). -/
theorem hostScatterAdd_rows2 (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (⟨[1], [0], [0], 1, wf⟩ : ScatterDims ⟨2, ![N, C]⟩ ⟨2, ![E, 1]⟩ ⟨2, ![E, C]⟩) x idx upd (ix2 n q)
      = x (ix2 n q) + ∑ e ∈ Finset.univ.filter (fun e : Fin E => (idx (ix2 e (0 : Fin 1))).toInt = (n.val : Int)),
          upd (ix2 e q) := by
  unfold Ideal.hostScatterAdd
  congr 1
  refine Finset.sum_nbij' (fun j => j 0) (fun e => ix2 e q) ?_ ?_ ?_ ?_ ?_
  · intro j hj
    have := (lands2_iff wf idx j n q).1 (Finset.mem_filter.1 hj).2
    exact Finset.mem_filter.2 ⟨Finset.mem_univ _, this.1⟩
  · intro e he
    have := (Finset.mem_filter.1 he).2
    exact Finset.mem_filter.2 ⟨Finset.mem_univ _, (lands2_iff wf idx (ix2 e q) n q).2 ⟨this, rfl⟩⟩
  · intro j hj
    have := (lands2_iff wf idx j n q).1 (Finset.mem_filter.1 hj).2
    show ix2 (j 0) q = j
    rw [← this.2]; exact (eq_ix2 j).symm
  · intro e _; rfl
  · intro j hj
    have := (lands2_iff wf idx j n q).1 (Finset.mem_filter.1 hj).2
    show upd j = upd (ix2 (j 0) q)
    rw [← this.2]
    exact congrArg upd (eq_ix2 j)

/-- The same for the host operation as a program prints it, for any dimension-number record `d` that IS the one above
    (`hd`): the record stays a name at the use site, and its identification with the literal is one `rfl`. -/
theorem scatterAdd_rows2 (d : ScatterDims ⟨2, ![N, C]⟩ ⟨2, ![E, 1]⟩ ⟨2, ![E, C]⟩) (hd : d = ⟨[1], [0], [0], 1, wf⟩) {φ : FTy}
    (x : FVec Ideal ⟨2, ![N, C]⟩ φ) (idx : IVec ⟨2, ![E, 1]⟩ w) (upd : FVec Ideal ⟨2, ![E, C]⟩ φ) (n : Fin N) (q : Fin C) :
    Host.scatterAdd d x idx upd (ix2 n q)
      = x (ix2 n q) + ∑ e ∈ Finset.univ.filter (fun e : Fin E => (idx (ix2 e (0 : Fin 1))).toInt = (n.val : Int)),
          upd (ix2 e q) := by
  subst hd
  exact hostScatterAdd_rows2 wf x idx upd n q

end Rank2

/-! ## Rank 1: single elements -/

section Rank1
variable {N E w : Nat}
  (wf : ScatterDims.WF ⟨1, ![N]⟩ ⟨2, ![E, 1]⟩ ⟨1, ![E]⟩ [] [0] [0] 1)

/-- The rank-1 dimension numbers: the update has no window axis, operand axis 0 is inserted, the one start-index component
    goes to operand axis 0, and the index vector is the scatter indices' axis 1. -/
abbrev d1 : ScatterDims ⟨1, ![N]⟩ ⟨2, ![E, 1]⟩ ⟨1, ![E]⟩ := ⟨[], [0], [0], 1, wf⟩

/-- Rank 1: the operand's only axis is an inserted window axis, so the window coordinate there is 0. -/
theorem window1_0 (j : (⟨1, ![E]⟩ : Shape).Idx) : (d1 wf).window j 0 = 0 := by
  unfold ScatterDims.window
  rw [dif_neg (by show (0 : Fin 1) ∉ ([] : List (Fin 1)); decide)]

/-- Rank 1: the scatter-indices index an update index reads its start from is its one coordinate, at the index vector's
    only position. -/
theorem siIdx1 (j : (⟨1, ![E]⟩ : Shape).Idx) (c : Fin (d1 wf).scatterDimsToOperandDims.length) :
    (d1 wf).siIdx j c = ix2 (j 0) (0 : Fin 1) := by
  funext b
  match b with
  | ⟨0, _⟩ => rfl
  | ⟨1, _⟩ =>
    apply Fin.ext
    have h : c.val < 1 := c.isLt
    show c.val = 0
    omega

/-- Rank 1: the window starts at the signed reading of the update element's index word. -/
theorem start1_0 (j : (⟨1, ![E]⟩ : Shape).Idx) (idx : IVec ⟨2, ![E, 1]⟩ w) :
    (d1 wf).start j idx 0 = (idx (ix2 (j 0) (0 : Fin 1))).toInt := by
  unfold ScatterDims.start
  rw [dif_pos (by show (0 : Fin 1) ∈ ([0] : List (Fin 1)); decide)]
  rw [siIdx1]
  rfl

/-- Rank 1: update index `j` lands at operand element `n` exactly when its index word reads `n` (signed). -/
theorem lands1_iff (idx : IVec ⟨2, ![E, 1]⟩ w) (j : (⟨1, ![E]⟩ : Shape).Idx) (n : Fin N) :
    (d1 wf).resultIdx? j idx = some (ix1 n) ↔ (idx (ix2 (j 0) (0 : Fin 1))).toInt = (n.val : Int) := by
  rw [resultIdx?_eq_some_iff]
  constructor
  · intro h
    have h0 := h 0
    rw [start1_0, window1_0] at h0
    have h0' : (n.val : Int) = (idx (ix2 (j 0) (0 : Fin 1))).toInt + ((0 : Nat) : Int) := h0
    omega
  · intro h0 a
    match a with
    | ⟨0, _⟩ =>
      show (n.val : Int) = (d1 wf).start j idx 0 + ((d1 wf).window j 0 : Nat)
      rw [start1_0, window1_0, h0]; simp

/-- Rank 1. A scatter-add of `E` update elements into an operand of `N` elements, update `e` going to the element its
    index word names: the result at `n` is the operand's element there plus the sum of the updates over the `e` whose
    index word reads `n` (signed, not clamped: an update whose word reads outside the operand is dropped). The filter is
    the one of `hostScatterAdd_rows2`. -/
theorem hostScatterAdd_rows1 (x : (⟨1, ![N]⟩ : Shape).Idx → EReal) (idx : IVec ⟨2, ![E, 1]⟩ w)
    (upd : (⟨1, ![E]⟩ : Shape).Idx → EReal) (n : Fin N) :
    Ideal.hostScatterAdd (⟨[], [0], [0], 1, wf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_nbij' (fun j => j 0) (fun e => ix1 e) ?_ ?_ ?_ ?_ ?_
  · intro j hj
    exact Finset.mem_filter.2 ⟨Finset.mem_univ _, (lands1_iff wf idx j n).1 (Finset.mem_filter.1 hj).2⟩
  · intro e he
    exact Finset.mem_filter.2 ⟨Finset.mem_univ _, (lands1_iff wf idx (ix1 e) n).2 (Finset.mem_filter.1 he).2⟩
  · intro j _
    exact (eq_ix1 j).symm
  · intro e _; rfl
  · intro j _
    exact congrArg upd (eq_ix1 j)

/-- The same for the host operation as a program prints it, for any dimension-number record `d` that IS the one above. -/
theorem scatterAdd_rows1 (d : ScatterDims ⟨1, ![N]⟩ ⟨2, ![E, 1]⟩ ⟨1, ![E]⟩) (hd : d = ⟨[], [0], [0], 1, wf⟩) {φ : FTy}
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e ∈ Finset.univ.filter (fun e : Fin E => (idx (ix2 e (0 : Fin 1))).toInt = (n.val : Int)),
          upd (ix1 e) := by
  subst hd
  exact hostScatterAdd_rows1 wf x idx upd n

end Rank1

end Idealize.ShloMosaic.ScatterRows
-- ==== Proof.HostEntries.lean ====
/-
  The arrays the tile loop reads, at an entry.

  The fused scatter-add of the 65-wide rows `[message, 1]` by destination node has, at node `n`: in a column `k < 64` the sum
  of the in-edges' messages at feature `k` — the aggregate —, and in column 64 a one per in-edge — the degree (one scatter,
  so the same in-edges select both).  The aggregates window reads the first 64 columns, the reciprocal-degree window the
  reciprocal of `max` of column 64 and `1`; the two weight windows read the weights' halves transposed; the bias window
  the bias as a row.
-/
import proofs.«116816_j15324443312418_2_alg».proof.Proof.HostStages
import proofs.«116816_j15324443312418_2_alg».proof.Proof.Spec
import proofs.«116816_j15324443312418_2_alg».proof.Proof.LibScatterRows
import Idealize.ShloMosaic.Lib.Pipeline.Value
import Idealize.ShloMosaic.Lib.ValueIdx
import Idealize.ShloMosaic.Lib.ValueLayout

noncomputable section

namespace Cert.MeanLayer.Host

open Cert.KernelIdeal Cert.KernelIdeal.Gen
open Idealize.ShloMosaic Idealize.ShloMosaic.ValueIdx Idealize.ShloMosaic.ScatterRows

variable (M : (⟨S1250000x64, .f32⟩ : BufTy).Contents (Elt Ideal)) (D : (⟨S1250000x1, .i32⟩ : BufTy).Contents (Elt Ideal))

/-- The fused sums at node `n`, column `q`: the zero word plus the in-edges' extended rows at `q`. -/
theorem sums_apply (n : Fin 100000) (q : Fin 65) :
    sums M D (ix2 n q) = zero + ∑ e ∈ inEdges D n, msgsExt M (ix2 e q) := by
  unfold sums inEdges
  refine (scatterAdd_rows2 (scatter_S100000x65_S1250000x1_S1250000x65_1_0_0_1).wf
    scatter_S100000x65_S1250000x1_S1250000x65_1_0_0_1 rfl _ D (msgsExt M) n q).trans ?_
  rfl

/-- An extended row in a column `k < 64` is the message. -/
theorem msgsExt_lo (e : Fin 1250000) (k : Fin 64) : msgsExt M (ix2 e (⟨k.val, by omega⟩ : Fin 65)) = M (ix2 e k) := by
  unfold msgsExt
  exact concatenate_pair_apply_left 1 M _ concatenates_S1250000x64_S1250000x1_S1250000x65_d1 _ rfl (ix2 e k)
    (fun b => match b with | ⟨0, _⟩ => rfl | ⟨1, _⟩ => rfl)

/-- An extended row in column 64 is the one word. -/
theorem msgsExt_last (e : Fin 1250000) : msgsExt M (ix2 e (⟨64, by omega⟩ : Fin 65)) = one := by
  unfold msgsExt
  rw [concatenate_pair_apply_right 1 M _ concatenates_S1250000x64_S1250000x1_S1250000x65_d1 _ rfl rfl (ix2 e (0 : Fin 1))
    (fun b hb => match b, hb with | ⟨0, _⟩, _ => rfl | ⟨1, _⟩, hb => absurd rfl hb)
    (by show 0 + 64 = 64; rfl)]
  rfl

/-- The aggregates window at node `n`, feature `k`. -/
theorem aggs_apply (n : Fin 100000) (k : Fin 64) : aggs M D (ix2 n k) = agg M D n k := by
  unfold aggs
  rw [extractStridedSlice_apply ![0, 0] (sums M D) slices_S100000x65_S100000x64_0_0 (ix2 n k)
    (ix2 n (⟨k.val, by omega⟩ : Fin 65)) (fun a => match a with
      | ⟨0, _⟩ => by show n.val = 0 + n.val; omega
      | ⟨1, _⟩ => by show k.val = 0 + k.val; omega)]
  rw [sums_apply]
  unfold agg
  simp only [msgsExt_lo]

/-- The degree column: the last column of the fused sums. -/
def degCol : (⟨S100000x1, .f32⟩ : BufTy).Contents (Elt Ideal) :=
  extractStridedSlice S100000x1 ![0, 64] (sums M D) slices_S100000x65_S100000x1_0_64

/-- A column of one words. -/
def onesCol : (⟨S100000x1, .f32⟩ : BufTy).Contents (Elt Ideal) :=
  broadcastInDim S100000x1 ![] bcast_S_S100000x1 (constant (F := Ideal) S_ .f32 0x3F800000#32)

theorem onesCol_apply (i : S100000x1.Idx) : onesCol i = one := rfl

/-- The degree column at node `n` is the degree. -/
theorem degCol_apply (n : Fin 100000) : degCol M D (ix2 n (0 : Fin 1)) = deg D n := by
  unfold degCol
  rw [extractStridedSlice_apply ![0, 64] (sums M D) slices_S100000x65_S100000x1_0_64 (ix2 n (0 : Fin 1))
    (ix2 n (⟨64, by omega⟩ : Fin 65)) (fun a => match a with
      | ⟨0, _⟩ => by show n.val = 0 + n.val; omega
      | ⟨1, _⟩ => by show 64 = 64 + 0; rfl)]
  rw [sums_apply]
  unfold deg
  simp only [msgsExt_last]

/-- The reciprocal degrees are the ones column over the maximum of the degree column and the ones column. -/
theorem invDeg_eq : invDeg M D
    = Host.divf (F := Ideal) (s := S100000x1) (φ := .f32) onesCol (maximumf (F := Ideal) (s := S100000x1) (φ := .f32) (degCol M D) onesCol) := rfl

/-- The host quotient of two arrays, at an index, is the quotient of their elements there. -/
theorem hostDivf_apply {s : Shape} {φ : FTy} (a b : FVec Ideal s φ) (i : s.Idx) : Host.divf a b i = Ideal.div (a i) (b i) := rfl

/-- The reciprocal-degree window at node `n`. -/
theorem invDeg_apply (n : Fin 100000) : invDeg M D (ix2 n (0 : Fin 1)) = Ideal.div one (max (deg D n) one) := by
  rw [invDeg_eq, hostDivf_apply, maximumf_apply, degCol_apply, onesCol_apply]

/-- The first weights window at input `k`, output `o`. -/
theorem wLo_apply (x4 : (⟨S64x128, .f32⟩ : BufTy).Contents (Elt Ideal)) (k o : Fin 64) : wLo x4 (ix2 k o) = x4 (ix2 o (lo k)) := by
  unfold wLo
  rw [transpose_ix2_apply]
  exact extractStridedSlice_apply ![0, 0] x4 slices_S64x128_S64x64_0_0 (ix2 o k) (ix2 o (lo k)) (fun a => match a with
    | ⟨0, _⟩ => by show o.val = 0 + o.val; omega
    | ⟨1, _⟩ => by show k.val = 0 + k.val; omega)

/-- The second weights window at input `k`, output `o`. -/
theorem wHi_apply (x4 : (⟨S64x128, .f32⟩ : BufTy).Contents (Elt Ideal)) (k o : Fin 64) : wHi x4 (ix2 k o) = x4 (ix2 o (hi k)) := by
  unfold wHi
  rw [transpose_ix2_apply]
  exact extractStridedSlice_apply ![0, 64] x4 slices_S64x128_S64x64_0_64 (ix2 o k) (ix2 o (hi k)) (fun a => match a with
    | ⟨0, _⟩ => by show o.val = 0 + o.val; omega
    | ⟨1, _⟩ => rfl)

/-- The bias window at output `o`. -/
theorem biasRow_apply (x5 : (⟨S64, .f32⟩ : BufTy).Contents (Elt Ideal)) (o : Fin 64) :
    shapeCast S1x64 x5 shapeCasts_S64_S1x64 (ix2 (0 : Fin 1) o) = x5 (ix1 o) :=
  shapeCast_a_1a_apply x5 shapeCasts_S64_S1x64 0 o

end Cert.MeanLayer.Host

end
-- ==== Proof.KernelIsSpec.lean ====
/-
  The tile loop computes the layer.

  Read at the result's index `(n, o)`, what the tiles compute from the six arrays the tile loop finds —
  features, aggregates, reciprocal degrees, the two transposed weight halves, the bias row — is the layer of the launch
  memory's features, messages, destination column, weights and bias: each array is its host term (HostStages.lean), and
  each host term at an entry is the layer's ingredient there (HostEntries.lean).
-/
import proofs.«116816_j15324443312418_2_alg».proof.Proof.KernelBlocks
import proofs.«116816_j15324443312418_2_alg».proof.Proof.HostEntries

noncomputable section

namespace Cert.MeanLayer.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- What the tiles compute from the arrays the tile loop finds is the layer of the launch memory. -/
theorem tiled_eq (c : Dev nD) :
    tiled (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
      = layer (m ((c : Thread nD τ).loc main_arg0)) (Host.M₀ m c) (Host.D₀ m c) (m ((c : Thread nD τ).loc main_arg4))
          (m ((c : Thread nD τ).loc main_arg5)) := by
  have e0 : V m c (Pipeline.arrRef spec0 0) = m ((c : Thread nD τ).loc main_arg0) := V_main_arg0 m c
  have e1 : V m c (Pipeline.arrRef spec0 1) = Host.aggs (Host.M₀ m c) (Host.D₀ m c) := Host.V_aggs m c
  have e2 : V m c (Pipeline.arrRef spec0 2) = Host.invDeg (Host.M₀ m c) (Host.D₀ m c) := Host.V_invDeg m c
  have e3 : V m c (Pipeline.arrRef spec0 3) = Host.wLo (m ((c : Thread nD τ).loc main_arg4)) := Host.V_wLo m c
  have e4 : V m c (Pipeline.arrRef spec0 4) = Host.wHi (m ((c : Thread nD τ).loc main_arg4)) := Host.V_wHi m c
  have e5 : V m c (Pipeline.arrRef spec0 5) = shapeCast S1x64 (m ((c : Thread nD τ).loc main_arg5)) shapeCasts_S64_S1x64 :=
    Host.V_bias m c
  rw [e0, e1, e2, e3, e4, e5]
  funext i
  obtain ⟨n, o, rfl⟩ : ∃ (n : Fin 100000) (o : Fin 64), i = ix2 n o := ⟨i 0, i 1, eq_ix2 i⟩
  have hn : node (ix2 n o) = n := rfl
  have ho : outp (ix2 n o) = o := rfl
  unfold tiled layer layerAt
  rw [hn, ho]
  simp only [Host.aggs_apply, Host.invDeg_apply, Host.wLo_apply, Host.wHi_apply]
  rw [Host.biasRow_apply]

end Cert.MeanLayer.Blocks

end
-- ==== Proof.RefIsSpec.lean ====
/-
  The reference program computes the layer.

  Stage by stage, at an index: the 64-wide scatter-add of the messages by destination node is the aggregate, the scatter-add
  of ones is the degree (the same in-edges select the terms of both), their quotient by `max degree 1` is the mean; the
  concatenated row `[h, mean]` read in its first 64 and its last 64 positions; the transposed weights; the bias spread over
  the rows; and the 128-term product split in its two halves, the mean as a quotient turned into the product with the
  reciprocal (Spec.lean's laws).
-/
import proofs.«116816_j15324443312418_2_alg».proof.Proof.Gen.ReferenceIdeal.Read
import proofs.«116816_j15324443312418_2_alg».proof.Proof.Spec
import proofs.«116816_j15324443312418_2_alg».proof.Proof.LibScatterRows
import Idealize.ShloMosaic.Lib.Pipeline.Value
import Idealize.ShloMosaic.Lib.ValueIdx

noncomputable section

namespace Cert.MeanLayer.Ref

open Cert.ReferenceIdeal Cert.ReferenceIdeal.Gen Cert.ReferenceIdeal.Read
open Idealize.ShloMosaic Idealize.ShloMosaic.ValueIdx Idealize.ShloMosaic.ScatterRows

variable (x0 : (⟨S100000x64, .f32⟩ : BufTy).Contents (Elt Ideal)) (x1 : (⟨S1250000x1, .f32⟩ : BufTy).Contents (Elt Ideal))
  (x2 x3 : (⟨S1250000, .i32⟩ : BufTy).Contents (Elt Ideal)) (x4 : (⟨S64x128, .f32⟩ : BufTy).Contents (Elt Ideal))
  (x5 : (⟨S64, .f32⟩ : BufTy).Contents (Elt Ideal))

/-- The reference's messages. -/
abbrev M : Msgs.Idx → EReal := val_main_v8 (F := Ideal) x0 x1 x2
/-- The reference's destination column. -/
abbrev D : DstCol.Idx → BitVec 32 := val_main_v10 (F := Ideal) x3

/-- The scatter-add of the messages, at node `n`, feature `k`, is the aggregate. -/
theorem aggregate_apply (n : Fin 100000) (k : Fin 64) :
    val_main_v11 (F := Ideal) x0 x1 x2 x3 (ix2 n k) = agg (M x0 x1 x2) (D x3) n k := by
  unfold val_main_v11 agg inEdges
  refine (scatterAdd_rows2 (scatter_S100000x64_S1250000x1_S1250000x64_1_0_0_1).wf
    scatter_S100000x64_S1250000x1_S1250000x64_1_0_0_1 rfl _ _ _ n k).trans ?_
  rw [val_main_v9_apply, val_main_cst_apply]
  rfl

/-- The scatter-add of ones, at node `n`, is the degree. -/
theorem degree_apply (n : Fin 100000) : val_main_v15 (F := Ideal) x3 (ix1 n) = deg (D x3) n := by
  unfold val_main_v15 deg inEdges
  refine (scatterAdd_rows1 (scatter_S100000_S1250000x1_S1250000_n_0_0_1).wf
    scatter_S100000_S1250000x1_S1250000_n_0_0_1 rfl _ _ _ n).trans ?_
  rw [val_main_v13_apply, val_main_cst_2_apply]
  simp only [val_main_v12_apply, val_main_cst_1_apply]
  rfl

/-- The mean at node `n`, feature `k`: the aggregate over `max degree 1`. -/
theorem mean_apply (n : Fin 100000) (k : Fin 64) :
    val_main_v20 (F := Ideal) x0 x1 x2 x3 (ix2 n k) = Ideal.div (agg (M x0 x1 x2) (D x3) n k) (max (deg (D x3) n) one) := by
  have e : idx_main_v18 (idx_main_v19 (ix2 n k)) = ix1 n := funext fun a => match a with | ⟨0, _⟩ => rfl
  rw [val_main_v20_apply, val_main_v19_apply, val_main_v18_apply, val_main_v17_apply, val_main_v16_apply,
    val_main_cst_3_apply, e, aggregate_apply, degree_apply]
  rfl

/-- The concatenated row in its first 64 positions: the node's own features. -/
theorem row_lo (n : Fin 100000) (o k : Fin 64) :
    val_main_v21 (F := Ideal) x0 x1 x2 x3 (lidx_main_v23 (ix2 n o) (lo k)) = x0 (ix2 n k) := by
  unfold val_main_v21
  exact concatenate_pair_apply_left 1 x0 _ concatenates_S100000x64_S100000x64_S100000x128_d1 _ rfl (ix2 n k)
    (fun b => match b with | ⟨0, _⟩ => rfl | ⟨1, _⟩ => rfl)

/-- The concatenated row in its last 64 positions: the mean. -/
theorem row_hi (n : Fin 100000) (o k : Fin 64) :
    val_main_v21 (F := Ideal) x0 x1 x2 x3 (lidx_main_v23 (ix2 n o) (hi k))
      = Ideal.div (agg (M x0 x1 x2) (D x3) n k) (max (deg (D x3) n) one) := by
  rw [← mean_apply]
  unfold val_main_v21
  exact concatenate_pair_apply_right 1 x0 _ concatenates_S100000x64_S100000x64_S100000x128_d1 _ rfl rfl (ix2 n k)
    (fun b hb => match b, hb with | ⟨0, _⟩, _ => rfl | ⟨1, _⟩, hb => absurd rfl hb)
    (by show k.val + 64 = 64 + k.val; omega)

/-- The transposed weights at input `k`, output `o`. -/
theorem weight_apply (n : Fin 100000) (o : Fin 64) (k : Fin 128) :
    val_main_v22 (F := Ideal) x4 (ridx_main_v23 (ix2 n o) k) = x4 (ix2 o k) := by
  rw [val_main_v22_apply]
  exact congrArg x4 (funext fun a => match a with | ⟨0, _⟩ => rfl | ⟨1, _⟩ => rfl)

/-- The bias spread over the rows, at output `o`. -/
theorem bias_apply (n : Fin 100000) (o : Fin 64) : val_main_v25 (F := Ideal) x5 (ix2 n o) = x5 (ix1 o) := by
  rw [val_main_v25_apply, val_main_v24_apply]
  exact congrArg x5 (funext fun a => match a with | ⟨0, _⟩ => rfl)

/-- The reference's result is the layer of its features, messages, destination column, weights and bias. -/
theorem result_eq : val_main_v27 (F := Ideal) x0 x1 x2 x3 x4 x5 = layer x0 (M x0 x1 x2) (D x3) x4 x5 := by
  funext i
  obtain ⟨n, o, rfl⟩ : ∃ (n : Fin 100000) (o : Fin 64), i = ix2 n o := ⟨i 0, i 1, eq_ix2 i⟩
  rw [val_main_v27_apply, val_main_v26_apply, val_main_v23_apply, bias_apply, val_main_call0_v0_apply,
    val_main_call0_cst_apply, sum_halves]
  simp only [row_lo, row_hi, weight_apply, mean_quot]
  rfl

end Cert.MeanLayer.Ref

end
-- ==== Proof.Claims.lean ====
/-
  The claims.

  The kernel's run, with the result array named (the generated blockwise value leg), ends with the result at the layer of
  the launch memory (KernelBlocks.lean, KernelIsSpec.lean).  The reference's generated run ends with its result at the
  reference's term, which is the layer of ITS launch memory (RefIsSpec.lean).  The two memories agree on the arguments, and
  the messages and the destination column are the same terms of the arguments in both programs: equal results.
-/
import proofs.«116816_j15324443312418_2_alg».proof.Defs
import proofs.«116816_j15324443312418_2_alg».proof.Proof.Gen.Pre_finite_inputs
import proofs.«116816_j15324443312418_2_alg».proof.Proof.KernelIsSpec
import proofs.«116816_j15324443312418_2_alg».proof.Proof.RefIsSpec

noncomputable section

namespace Cert.MeanLayer.Claims

open Idealize.ShloMosaic Idealize.ShloMosaic.TcCoe Idealize.SL.Sem

/-- The two programs form the messages by the same operations of the same arguments. -/
theorem msgs_eq (x0 : (⟨Cert.ReferenceIdeal.S100000x64, .f32⟩ : BufTy).Contents (Elt Ideal))
    (x1 : (⟨Cert.ReferenceIdeal.S1250000x1, .f32⟩ : BufTy).Contents (Elt Ideal))
    (x2 : (⟨Cert.ReferenceIdeal.S1250000, .i32⟩ : BufTy).Contents (Elt Ideal)) :
    Ref.M x0 x1 x2 = Host.msgs x0 x1 x2 := rfl

/-- The two programs form the destination column by the same operation of the same argument. -/
theorem dst_eq (x3 : (⟨Cert.ReferenceIdeal.S1250000, .i32⟩ : BufTy).Contents (Elt Ideal)) :
    Ref.D x3 = Host.dstCol x3 := rfl

/-- The kernel's run: the result array ends at the layer of the launch memory, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v25)
          = layer (m ((c : Thread Cert.KernelIdeal.nD Cert.KernelIdeal.τ).loc Cert.KernelIdeal.main_arg0)) (Host.M₀ m c) (Host.D₀ m c)
              (m ((c : Thread Cert.KernelIdeal.nD Cert.KernelIdeal.τ).loc Cert.KernelIdeal.main_arg4))
              (m ((c : Thread Cert.KernelIdeal.nD Cert.KernelIdeal.τ).loc Cert.KernelIdeal.main_arg5))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
        ∧ r.2.mem ((c : Thread Cert.KernelIdeal.nD Cert.KernelIdeal.τ).loc Cert.KernelIdeal.main_arg5) = m ((c : Thread Cert.KernelIdeal.nD Cert.KernelIdeal.τ).loc Cert.KernelIdeal.main_arg5) :=
  (θ_run Cert.KernelIdeal.defs _ _).mono
    (fun r h c => ⟨(h c).1.trans ((Blocks.final m c).trans (Blocks.tiled_eq m c)), (h c).2⟩)
    (Cert.KernelIdeal.Value.run_blocks m ρ)

/-- Both idealized programs, from memories agreeing on the arguments, end with the layer of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Ref.result_eq, (hagree c).1, (hagree c).2.1, (hagree c).2.2.1,
    (hagree c).2.2.2.1, (hagree c).2.2.2.2.1, (hagree c).2.2.2.2.2, msgs_eq, dst_eq]

end Cert.MeanLayer.Claims

end
-- ==== Proof.lean ====
/- A mean-aggregating graph layer: per node, the messages h[src]·w of the incoming edges are summed and divided by
   `max in-degree 1`, and max([h, mean] · Wᵀ + b, 0) is returned.
   The kernel scatter-adds the messages and a column of ones in ONE 65-wide scatter, multiplies the aggregate by the
   reciprocal 1 / max(degree, 1) and contracts the node's features and its mean against the two 64-column halves of W
   separately, tile by tile of 5000 nodes; the reference scatter-adds messages and ones separately, divides by
   max(degree, 1) and contracts the concatenated 128-wide row once.  On the extended reals both are one function of the
   arguments (Proof/Spec.lean): a quotient by a nonzero number is the product with its reciprocal, and max(degree, 1) ≥ 1;
   a 128-term sum is the sum of its two 64-term halves; the same in-edges select the terms of every scatter.
   The three runs terminate with the arguments unchanged; the idealization rewrote nothing; the algebraic claim is
   Proof/Claims.lean's. -/
import proofs.«116816_j15324443312418_2_alg».proof.Defs
import proofs.«116816_j15324443312418_2_alg».proof.Proof.Gen.Kernel
import proofs.«116816_j15324443312418_2_alg».proof.Proof.Gen.Kernel.Skeleton
import proofs.«116816_j15324443312418_2_alg».proof.Proof.Gen.Kernel.Launch
import proofs.«116816_j15324443312418_2_alg».proof.Proof.Gen.Kernel.Points
import proofs.«116816_j15324443312418_2_alg».proof.Proof.Gen.Kernel.Frame
import proofs.«116816_j15324443312418_2_alg».proof.Proof.Gen.KernelIdeal
import proofs.«116816_j15324443312418_2_alg».proof.Proof.Gen.KernelIdeal.Skeleton
import proofs.«116816_j15324443312418_2_alg».proof.Proof.Gen.KernelIdeal.Launch
import proofs.«116816_j15324443312418_2_alg».proof.Proof.Gen.KernelIdeal.Points
import proofs.«116816_j15324443312418_2_alg».proof.Proof.Gen.KernelIdeal.Frame
import proofs.«116816_j15324443312418_2_alg».proof.Proof.Gen.KernelIdeal.Value
import proofs.«116816_j15324443312418_2_alg».proof.Proof.Gen.ReferenceIdeal
import proofs.«116816_j15324443312418_2_alg».proof.Proof.Gen.ReferenceIdeal.Run
import proofs.«116816_j15324443312418_2_alg».proof.Proof.Gen.ReferenceIdeal.Read
import proofs.«116816_j15324443312418_2_alg».proof.Proof.Gen.Pre_finite_inputs
import proofs.«116816_j15324443312418_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.MeanLayer.Claims.algebraic⟩

end Cert.Proof

end
